-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S4x8192x384 : Shape := ⟨3, ![4, 8192, 384]⟩
abbrev S384 : Shape := ⟨1, ![384]⟩
abbrev S768x384 : Shape := ⟨2, ![768, 384]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S4x8192x384 : S_.BroadcastsInDim S4x8192x384 (![] : Fin 0 → Fin S4x8192x384.rank)
  reducesTo_S4x8192x384_S_d0_1_2 : S4x8192x384.ReducesTo [0, 1, 2] S_
  bcast_S_S384 : S_.BroadcastsInDim S384 (![] : Fin 0 → Fin S384.rank)
  reducesTo_S384_S_d0 : S384.ReducesTo [0] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x384 .f32) (main_v13 : IVec S_ 1) (main_v16 : IVec S768x384 1) : IVec S_ 1 :=
  let main_c_5 : IVec S_ 1 := constantI S_ 1 1#1
  let main_v17 : IVec S_ 1 := (fun x v => Host.reduce IntOp.andi x v reducesTo_S768x384_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x384 .f32 := Host.absf main_arg5
  let main_cst_8 : FVec F S_ .f32 := constant S_ .f32 0x7F800000#32
  let main_v25 : FVec F S768x384 .f32 := broadcastInDim S768x384 ![] bcast_S_S768x384 main_cst_8
  let main_v26 : IVec S768x384 1 := cmpf .olt main_v24 main_v25
  let main_c_9 : IVec S_ 1 := constantI S_ 1 1#1
  let main_v27 : IVec S_ 1 := (fun x v => Host.reduce IntOp.andi x v reducesTo_S768x384_S_d0_1 h_S_) main_v26 main_c_9
  let main_v28 : IVec S_ 1 := andi main_v23 main_v27
  main_v28

def fn {F : FTy → Type} [FloatOps F] (main_arg0 : FVec F S4x8192x768 .f32) (main_arg1 : FVec F S4x8192x384 .f32) (main_arg2 : FVec F S384 .f32) (main_arg3 : FVec F S768x384 .f32) (main_arg4 : FVec F S768 .f32) (main_arg5 : FVec F S768x384 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S4x8192x384 .f32 := Host.absf main_arg1
  let main_cst_0 : FVec F S_ .f32 := constant S_ .f32 0x7F800000#32
  let main_v5 : FVec F S4x8192x384 .f32 := broadcastInDim S4x8192x384 ![] bcast_S_S4x8192x384 main_cst_0
  let main_v6 : IVec S4x8192x384 1 := cmpf .olt main_v4 main_v5
  let main_c_1 : IVec S_ 1 := constantI S_ 1 1#1
  let main_v7 : IVec S_ 1 := (fun x v => Host.reduce IntOp.andi x v reducesTo_S4x8192x384_S_d0_1_2 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S768x384 .f32 := Host.absf main_arg3
  let main_cst_4 : FVec F S_ .f32 := constant S_ .f32 0x7F800000#32
  let main_v15 : FVec F S768x384 .f32 := broadcastInDim S768x384 ![] bcast_S_S768x384 main_cst_4
  let main_v16 : IVec S768x384 1 := cmpf .olt main_v14 main_v15
  fn_part1 (F := F) main_arg4 main_arg5 main_v13 main_v16
-- ==== Kernel.lean ====
abbrev S4x8192x768 : Shape := ⟨3, ![4, 8192, 768]⟩
abbrev S4x8192x384 : Shape := ⟨3, ![4, 8192, 384]⟩
abbrev S384 : Shape := ⟨1, ![384]⟩
abbrev S768x384 : Shape := ⟨2, ![768, 384]⟩
abbrev S768 : Shape := ⟨1, ![768]⟩
abbrev S32768x768 : Shape := ⟨2, ![32768, 768]⟩
abbrev S32768x384 : Shape := ⟨2, ![32768, 384]⟩
abbrev S1x384 : Shape := ⟨2, ![1, 384]⟩
abbrev S1x768 : Shape := ⟨2, ![1, 768]⟩
abbrev S384x768 : Shape := ⟨2, ![384, 768]⟩
abbrev S1024x768 : Shape := ⟨2, ![1024, 768]⟩
abbrev S1024x384 : Shape := ⟨2, ![1024, 384]⟩
abbrev S1024 : Shape := ⟨1, ![1024]⟩
abbrev S1024x1 : Shape := ⟨2, ![1024, 1]⟩

abbrev nBuf : Space → Nat
  | .hbm => 16
  | .vmem => 10
  | .smem => 0
  | _ => 0

abbrev bufTy : (tb : Table) → Fin (tcTables nBuf tb) → BufTy
  | .hbm, ⟨0, _⟩ => ⟨S4x8192x768, .f32⟩
  | .hbm, ⟨1, _⟩ => ⟨S4x8192x384, .f32⟩
  | .hbm, ⟨2, _⟩ => ⟨S384, .f32⟩
  | .hbm, ⟨3, _⟩ => ⟨S768x384, .f32⟩
  | .hbm, ⟨4, _⟩ => ⟨S768, .f32⟩
  | .hbm, ⟨5, _⟩ => ⟨S768x384, .f32⟩
  | .hbm, ⟨6, _⟩ => ⟨S32768x768, .f32⟩
  | .hbm, ⟨7, _⟩ => ⟨S32768x384, .f32⟩
  | .hbm, ⟨8, _⟩ => ⟨S1x384, .f32⟩
  | .hbm, ⟨9, _⟩ => ⟨S1x768, .f32⟩
  | .hbm, ⟨10, _⟩ => ⟨S384x768, .f32⟩
  | .hbm, ⟨11, _⟩ => ⟨S384x768, .bf16⟩
  | .hbm, ⟨12, _⟩ => ⟨S384x768, .f32⟩
  | .hbm, ⟨13, _⟩ => ⟨S384x768, .bf16⟩
  | .hbm, ⟨14, _⟩ => ⟨S32768x768, .f32⟩
  | .hbm, ⟨15, _⟩ => ⟨S4x8192x768, .f32⟩
  | .local _ .vmem, ⟨0, _⟩ => ⟨S1024x768, .f32⟩
  | .local _ .vmem, ⟨1, _⟩ => ⟨S1024x768, .f32⟩
  | .local _ .vmem, ⟨2, _⟩ => ⟨S1024x384, .f32⟩
  | .local _ .vmem, ⟨3, _⟩ => ⟨S1024x384, .f32⟩
  | .local _ .vmem, ⟨4, _⟩ => ⟨S1x384, .f32⟩
  | .local _ .vmem, ⟨5, _⟩ => ⟨S384x768, .bf16⟩
  | .local _ .vmem, ⟨6, _⟩ => ⟨S1x768, .f32⟩
  | .local _ .vmem, ⟨7, _⟩ => ⟨S384x768, .bf16⟩
  | .local _ .vmem, ⟨8, _⟩ => ⟨S1024x768, .f32⟩
  | .local _ .vmem, ⟨9, _⟩ => ⟨S1024x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x8192x768_S32768x768 : S4x8192x768.ShapeCasts S32768x768
  shapeCasts_S4x8192x384_S32768x384 : S4x8192x384.ShapeCasts S32768x384
  shapeCasts_S384_S1x384 : S384.ShapeCasts S1x384
  shapeCasts_S768_S1x768 : S768.ShapeCasts S1x768
  transposes_S768x384_S384x768_1_0 : S768x384.Transposes [1, 0] S384x768
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  reduces_S1024x384_S1024 : S1024x384.Reduces [1] S1024
  shapeCasts_S1024_S1024x1 : S1024.ShapeCasts S1024x1
  broadcasts_S1024x1_S1024x384 : S1024x1.Broadcasts S1024x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S1024x768_S1024 : S1024x768.Reduces [1] S1024
  broadcasts_S1024x1_S1024x768 : S1024x1.Broadcasts S1024x768
  shapeCasts_S32768x768_S4x8192x768 : S32768x768.ShapeCasts S4x8192x768
  dot_S1024x384_S384x768_S1024x768_1_0_0_1_n_n_wf : DotDims.WF S1024x384 S384x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S32768x384.size a
  hwx0_1 : ∀ i : grid0.Coords, EltTy.bits .f32 = 32 ∨ (Rect.block (s := S32768x384) S1024x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x768.size a ≤ S384x768.size a
  hwx0_3 : ∀ i : grid0.Coords, EltTy.bits .bf16 = 32 ∨ (Rect.block (s := S384x768) S384x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x768.size a ≤ S384x768.size a
  hwx0_5 : ∀ i : grid0.Coords, EltTy.bits .bf16 = 32 ∨ (Rect.block (s := S384x768) S384x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x768.size a ≤ S32768x768.size a
  hwx0_6 : ∀ i : grid0.Coords, EltTy.bits .f32 = 32 ∨ (Rect.block (s := S32768x768) S1024x768.size (cc0_transform_6 i) (hinb0_6 i)).WholeWords (EltTy.packing .f32)

variable [Facts₀]

def dot_S1024x384_S384x768_S1024x768_1_0_0_1_n_n : DotDims S1024x384 S384x768 S1024x768 where
  lhsContracting := [1]
  rhsContracting := [0]
  lhsNonContracting := [0]
  rhsNonContracting := [1]
  lhsBatch := []
  rhsBatch := []
  wf := dot_S1024x384_S384x768_S1024x768_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S384x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S384x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S4x8192x384 : Shape := ⟨3, ![4, 8192, 384]⟩
abbrev S384 : Shape := ⟨1, ![384]⟩
abbrev S768x384 : Shape := ⟨2, ![768, 384]⟩
abbrev S768 : Shape := ⟨1, ![768]⟩
abbrev S_ : Shape := ⟨0, ![]⟩
abbrev S4x8192 : Shape := ⟨2, ![4, 8192]⟩
abbrev S4x8192x1 : Shape := ⟨3, ![4, 8192, 1]⟩
abbrev S1x1x384 : Shape := ⟨3, ![1, 1, 384]⟩
abbrev S1x1x768 : Shape := ⟨3, ![1, 1, 768]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192x384, .f32⟩
  | .hbm, ⟨2, _⟩ => ⟨S384, .f32⟩
  | .hbm, ⟨3, _⟩ => ⟨S768x384, .f32⟩
  | .hbm, ⟨4, _⟩ => ⟨S768, .f32⟩
  | .hbm, ⟨5, _⟩ => ⟨S768x384, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x768, .f32⟩
  | .hbm, ⟨13, _⟩ => ⟨S4x8192x768, .f32⟩
  | .hbm, ⟨14, _⟩ => ⟨S4x8192x768, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x768, .f32⟩
  | .hbm, ⟨22, _⟩ => ⟨S4x8192x768, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x768, .f32⟩
  | .hbm, ⟨28, _⟩ => ⟨S4x8192x768, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S4x8192x384, .f32⟩
  | .hbm, ⟨36, _⟩ => ⟨S4x8192x384, .f32⟩
  | .hbm, ⟨37, _⟩ => ⟨S4x8192x384, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x384, .f32⟩
  | .hbm, ⟨45, _⟩ => ⟨S4x8192x384, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S4x8192x384, .f32⟩
  | .hbm, ⟨51, _⟩ => ⟨S4x8192x384, .f32⟩
  | .hbm, ⟨52, _⟩ => ⟨S1x1x384, .f32⟩
  | .hbm, ⟨53, _⟩ => ⟨S4x8192x384, .f32⟩
  | .hbm, ⟨54, _⟩ => ⟨S4x8192x384, .f32⟩
  | .hbm, ⟨55, _⟩ => ⟨S4x8192x768, .f32⟩
  | .hbm, ⟨56, _⟩ => ⟨S1x1x768, .f32⟩
  | .hbm, ⟨57, _⟩ => ⟨S4x8192x768, .f32⟩
  | .hbm, ⟨58, _⟩ => ⟨S4x8192x768, .f32⟩
  | .hbm, ⟨59, _⟩ => ⟨S4x8192x768, .f32⟩
  | .hbm, ⟨60, _⟩ => ⟨S4x8192x768, .f32⟩
  | .hbm, ⟨61, _⟩ => ⟨S_, .f32⟩
  | .hbm, ⟨62, _⟩ => ⟨S4x8192x768, .f32⟩
  | .hbm, ⟨63, _⟩ => ⟨S4x8192x768, .f32⟩
  | .hbm, ⟨64, _⟩ => ⟨S_, .f32⟩
  | .hbm, ⟨65, _⟩ => ⟨S4x8192x768, .f32⟩
  | .hbm, ⟨66, _⟩ => ⟨S4x8192x768, .f32⟩
  | .hbm, ⟨67, _⟩ => ⟨S4x8192x768, .f32⟩
  | .hbm, ⟨68, _⟩ => ⟨S4x8192x768, .f32⟩
  | .hbm, ⟨69, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  reducesTo_S4x8192x768_S4x8192_d2 : S4x8192x768.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x768_0_1_2 : S4x8192x1.BroadcastsInDim S4x8192x768 (![0, 1, 2] : Fin 3 → Fin S4x8192x768.rank)
  reducesTo_S4x8192x384_S4x8192_d2 : S4x8192x384.ReducesTo [2] S4x8192
  bcast_S4x8192x1_S4x8192x384_0_1_2 : S4x8192x1.BroadcastsInDim S4x8192x384 (![0, 1, 2] : Fin 3 → Fin S4x8192x384.rank)
  bcast_S384_S1x1x384_2 : S384.BroadcastsInDim S1x1x384 (![2] : Fin 1 → Fin S1x1x384.rank)
  bcast_S1x1x384_S4x8192x384_0_1_2 : S1x1x384.BroadcastsInDim S4x8192x384 (![0, 1, 2] : Fin 3 → Fin S4x8192x384.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  bcast_S_S4x8192x768 : S_.BroadcastsInDim S4x8192x768 (![] : Fin 0 → Fin S4x8192x768.rank)
  dot_S4x8192x384_S768x384_S4x8192x768_2_1_01_0_n_n_wf : DotDims.WF S4x8192x384 S768x384 S4x8192x768 [2] [1] [0, 1] [0] [] []

variable [Facts₀]

def dot_S4x8192x384_S768x384_S4x8192x768_2_1_01_0_n_n : DotDims S4x8192x384 S768x384 S4x8192x768 where
  lhsContracting := [2]
  rhsContracting := [1]
  lhsNonContracting := [0, 1]
  rhsNonContracting := [0]
  lhsBatch := []
  rhsBatch := []
  wf := dot_S4x8192x384_S768x384_S4x8192x768_2_1_01_0_n_n_wf

class Facts : Prop extends Facts₀ where

variable [Facts]
-- ==== Proof.FiniteInputs.lean ====
/-
  From the precondition (every float input finite) to: every entry of the two large inputs is a real number,
  at the ideal instance, where a float is an extended real.

  The precondition is a conjunction of six scalar bits, one per input; each bit is the "and" over all entries of the
  comparison |x| < +∞. A conjunction of bits that is 1 has every bit 1; an "and"-reduction over all axes that is 1 has
  every entry 1; and |x| = max x (-x) < ⊤ excludes x = ⊤ (max is ⊤) and x = ⊥ (then -x = ⊤), leaving a real x.
-/
import proofs.«156625_j86371792322640_2_alg».proof.Defs
import proofs.«156625_j86371792322640_2_alg».proof.Proof.Gen.Pre_finite_inputs
import proofs.«156625_j86371792322640_2_alg».proof.Proof.Gen.KernelIdeal
import Idealize.ShloMosaic.Lib.ReduceAll
import Idealize.ShloMosaic.Lib.ValueIdx
import Idealize.ShloMosaic.PureOps.Ideal.Laws

noncomputable section

namespace Cert.AdaLN.Finite

open Idealize.ShloMosaic Idealize.SL.Sem

/-- The rank-0 shape has one index. -/
instance subsingleton_scalar_idx : Subsingleton Cert.Pre_finite_inputs.S_.Idx :=
  ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value max x (-x) is strictly below +∞ is a real number:
    at ⊤ the maximum is ⊤, and at ⊥ the negation is ⊤, so neither is below ⊤. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- One input: if the "and" over all entries of |x| < +∞ is 1, every entry of x is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) :
    ∀ i, ∃ r : ℝ, x i = (r : EReal) := by
  intro i
  have hi := Host.reduce_andi_all _ _ hr hu j e i
  exact real_of_abs_lt_inf (x i) hi

open Cert.Pre_finite_inputs in
/-- The printed predicate: if it is all ones, every entry of its first two arguments is a real number. -/
theorem finite_of_fn [Cert.Pre_finite_inputs.Facts]
    (x0 : FVec Ideal Cert.Pre_finite_inputs.S4x8192x768 .f32) (x1 : FVec Ideal Cert.Pre_finite_inputs.S4x8192x384 .f32)
    (x2 : FVec Ideal Cert.Pre_finite_inputs.S384 .f32) (x3 : FVec Ideal Cert.Pre_finite_inputs.S768x384 .f32)
    (x4 : FVec Ideal Cert.Pre_finite_inputs.S768 .f32) (x5 : FVec Ideal Cert.Pre_finite_inputs.S768x384 .f32)
    (h : Cert.Pre_finite_inputs.fn (F := Ideal) x0 x1 x2 x3 x4 x5 = (fun _ => 1#1)) :
    (∀ i, ∃ r : ℝ, x0 i = (r : EReal)) ∧ (∀ i, ∃ r : ℝ, x1 i = (r : EReal)) := by
  have e := congrFun h ValueIdx.ix0
  dsimp only [Cert.Pre_finite_inputs.fn, Cert.Pre_finite_inputs.fn_part1, andi] at e
  simp only [IntOp.andi_eq_one] at e
  obtain ⟨⟨⟨⟨⟨e0, e1⟩, -⟩, -⟩, -⟩, -⟩ := e
  exact ⟨all_real x0 _ _ _ _ e0, all_real x1 _ _ _ _ e1⟩

/-- The form used against a memory: under the idealized kernel's precondition, on every device, every entry of the
    first two argument arrays is a real number. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  finite_of_fn _ _ _ _ _ _ (hpre c)

end Cert.AdaLN.Finite

end
-- ==== Proof.Spec.lean ====
/-
  The arithmetic of one output entry of the adaptive layer norm, written over rows.

  An output entry at row `r` and column `q` depends on the row `r` of the activations `a` (768 numbers), the row
  `r` of the conditioning input `s` (384 numbers), the weight vector of the conditioning norm, column `q` of
  the two projection matrices and entry `q` of the gate bias:

      out = LN(a_r)(q) · σ(⟨LN(s_r) ⊙ w, Wg_q⟩ + bg_q) + ⟨LN(s_r) ⊙ w, Wb_q⟩.

  The two programs spell the layer norm `LN` and the logistic function `σ` differently. One computes the variance
  in two passes, `mean((x - μ)²)`, divides by its square root and writes `σ(z) = 1 / (1 + exp(-z))` out; the
  other computes the variance in one pass, `mean(x²) - μ²`, multiplies by the reciprocal square root and uses the
  logistic function as one operation. Both spellings are stated here over the extended reals, each operation
  the exact one; that they agree on rows of finite numbers is proved in NormAlgebra.lean.
-/
import Idealize.ShloMosaic.PureOps.Ideal
import Idealize.ShloMosaic.PureOps.Ideal.Laws

noncomputable section

open scoped BigOperators

namespace Cert.AdaLN

open Idealize.ShloMosaic

/-- The count of a 384-entry row as the float literal `384.0`. -/
def N384 : EReal := Ideal.ofBits .f32 0x43C00000#32
/-- The count of a 768-entry row as the float literal `768.0`. -/
def N768 : EReal := Ideal.ofBits .f32 0x44400000#32
/-- The variance offset, the float nearest `1e-5`. -/
def eps : EReal := Ideal.ofBits .f32 0x3727C5AC#32
/-- The float literal `1.0`. -/
def one : EReal := Ideal.ofBits .f32 0x3F800000#32

/-- The mean of a row: its sum divided by the count `N`. -/
def mean {n : ℕ} (N : EReal) (x : Fin n → EReal) : EReal := Ideal.div (∑ j, x j) N

/-- Layer norm, two-pass form: the centred entry divided by the square root of the mean squared deviation plus `e`. -/
def lnTwoPass {n : ℕ} (N e : EReal) (x : Fin n → EReal) (k : Fin n) : EReal :=
  Ideal.div (x k - mean N x)
    (Ideal.sqrt (Ideal.div (∑ j, (x j - mean N x) * (x j - mean N x)) N + e))

/-- Layer norm, one-pass form: the centred entry times the reciprocal square root of the mean square minus the
    squared mean plus `e`. -/
def lnOnePass {n : ℕ} (N e : EReal) (x : Fin n → EReal) (k : Fin n) : EReal :=
  (x k - mean N x) * Ideal.rsqrt (Ideal.div (∑ j, x j * x j) N - mean N x * mean N x + e)

/-- One output entry, two-pass layer norms and the logistic function written out. -/
def entryTwoPass (aRow : Fin 768 → EReal) (q : Fin 768) (sRow w wg wb : Fin 384 → EReal) (bgq : EReal) : EReal :=
  lnTwoPass N768 eps aRow q
      * Ideal.div one (one + Ideal.exp (-((∑ c, (lnTwoPass N384 eps sRow c * w c) * wg c) + bgq)))
    + ∑ c, (lnTwoPass N384 eps sRow c * w c) * wb c

/-- One output entry, one-pass layer norms and the logistic function as one operation. -/
def entryOnePass (aRow : Fin 768 → EReal) (q : Fin 768) (sRow w wg wb : Fin 384 → EReal) (bgq : EReal) : EReal :=
  lnOnePass N768 eps aRow q
      * Ideal.logistic ((∑ c, (lnOnePass N384 eps sRow c * w c) * wg c) + bgq)
    + ∑ c, (lnOnePass N384 eps sRow c * w c) * wb c

end Cert.AdaLN

end
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.KernelEntry.lean ====
/-
  One entry of the block the kernel body stores, as the one-pass entry function of the specification.

  The body works on a block of 1024 rows. It loads the conditioning block `s` ([1024, 384]), takes each row's sum and
  sum of squares along the row (a lane sum, kept as a column), forms the mean and the one-pass variance
  `mean(s²) - mean(s)²`, multiplies the centred row by the reciprocal square root of the variance plus the offset and
  by the weight row, and feeds the result, unchanged by the change of float format, to two plain matrix products
  with the [384, 768] gate and shift matrices; the gate product gets the bias row added and goes through the logistic
  function. The activations' block ([1024, 768]) is normalised the same way and combined: `a_n · gate + shift`.

  Read at the entry `(p, q)` every step depends only on row `p` of the two blocks and column `q` of the matrices: a lane
  sum is the sum over the row, a column broadcast back over the row reads its row's entry, a row broadcast over the
  rows reads its column's entry, a matrix product into the zero matrix is `∑ₖ lhs (p, k) · rhs (k, q)`.
-/
import proofs.«156625_j86371792322640_2_alg».proof.Proof.Gen.KernelIdeal.Frame
import proofs.«156625_j86371792322640_2_alg».proof.Proof.Spec
import proofs.«156625_j86371792322640_2_alg».proof.Proof.LibKeepdims
import proofs.«156625_j86371792322640_2_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.AdaLN.KernelSide

open Idealize.ShloMosaic Idealize.ShloMosaic.ValueIdx Cert.KernelIdeal Cert.KernelIdeal.Gen Cert.AdaLN

/-! ## A row's layer norm in the one-pass spelling, read at an entry -/

/-- The lane sum over axis 1 of a `[1024, K]` block, at row `p`, is the sum of that row. -/
theorem rowSum {K : ℕ} (v : FVec Ideal ⟨2, ![1024, K]⟩ .f32) (h : (⟨2, ![1024, K]⟩ : Shape).Reduces [1] ⟨1, ![1024]⟩)
    (hφ : FKind.Formats .f32) (hacc : (0x00000000#32 : BitVec FTy.f32.bits) = FKind.add.neutral .f32 hφ) (p : Fin 1024) :
    multiReduction .add [1] ⟨1, ![1024]⟩ v 0x00000000#32 h hφ hacc (ix1 p) = ∑ k : Fin K, v (ix2 p k) := by
  refine (Ideal.multiReduction_add_single v 0x00000000#32 h hφ hacc (ix1 p)).trans ?_
  refine Finset.sum_congr rfl fun k _ => congrArg v ?_
  funext a; apply Fin.ext
  match a with
  | ⟨0, _⟩ => rfl
  | ⟨1, _⟩ => rfl

theorem rsqrt_apply {s : Shape} (v : FVec Ideal s .f32) (i : s.Idx) : rsqrt v i = Ideal.rsqrt (v i) := rfl

theorem logistic_apply {s : Shape} (v : FVec Ideal s .f32) (i : s.Idx) : logistic v i = Ideal.logistic (v i) := rfl

/-- A vector of row sums, kept as a column and divided by the count, is at `(p, 0)` the mean of row `p`. -/
theorem colMean {K : ℕ} (Nw : BitVec 32) (x : Fin 1024 → Fin K → EReal) (sums : FVec Ideal ⟨1, ![1024]⟩ .f32)
    (hs : ∀ p, sums (ix1 p) = ∑ k : Fin K, x p k)
    (hc : (⟨1, ![1024]⟩ : Shape).ShapeCasts ⟨2, ![1024, 1]⟩) (p : Fin 1024) (u : Fin 1) :
    divf (shapeCast ⟨2, ![1024, 1]⟩ sums hc) (broadcast ⟨2, ![1024, 1]⟩ (Scalar.ofBits (F := Ideal) .f32 Nw)) (ix2 p u)
      = mean (Ideal.ofBits .f32 Nw) (x p) := by
  rw [divf_apply, Cert.Lib.Keepdims.shapeCast_a_a1_apply, hs]
  rfl

/-- The one-pass layer norm of a `[1024, K]` block as the body spells it — the row sums of the block and of its
    square kept as columns, divided by the count, the variance their difference, the reciprocal root broadcast back over
    the row — read at `(p, k)`. The block's row sums arrive as a separate vector. -/
theorem lnBlock {K : ℕ} (Nw ew : BitVec 32) (v : FVec Ideal ⟨2, ![1024, K]⟩ .f32) (sums : FVec Ideal ⟨1, ![1024]⟩ .f32)
    (hs : ∀ p, sums (ix1 p) = ∑ k : Fin K, v (ix2 p k))
    (hred : (⟨2, ![1024, K]⟩ : Shape).Reduces [1] ⟨1, ![1024]⟩)
    (hφ : FKind.Formats .f32) (hacc : (0x00000000#32 : BitVec FTy.f32.bits) = FKind.add.neutral .f32 hφ)
    (hc : (⟨1, ![1024]⟩ : Shape).ShapeCasts ⟨2, ![1024, 1]⟩)
    (hb : (⟨2, ![1024, 1]⟩ : Shape).Broadcasts ⟨2, ![1024, K]⟩) (p : Fin 1024) (k : Fin K) :
    mulf (subf v (broadcastTo ⟨2, ![1024, K]⟩
            (divf (shapeCast ⟨2, ![1024, 1]⟩ sums hc) (broadcast ⟨2, ![1024, 1]⟩ (Scalar.ofBits (F := Ideal) .f32 Nw))) hb))
        (broadcastTo ⟨2, ![1024, K]⟩
          (rsqrt (addf
            (subf (divf (shapeCast ⟨2, ![1024, 1]⟩ (multiReduction .add [1] ⟨1, ![1024]⟩ (mulf v v) 0x00000000#32 hred hφ hacc) hc)
                    (broadcast ⟨2, ![1024, 1]⟩ (Scalar.ofBits (F := Ideal) .f32 Nw)))
                  (mulf (divf (shapeCast ⟨2, ![1024, 1]⟩ sums hc) (broadcast ⟨2, ![1024, 1]⟩ (Scalar.ofBits (F := Ideal) .f32 Nw)))
                        (divf (shapeCast ⟨2, ![1024, 1]⟩ sums hc) (broadcast ⟨2, ![1024, 1]⟩ (Scalar.ofBits (F := Ideal) .f32 Nw)))))
            (broadcast ⟨2, ![1024, 1]⟩ (Scalar.ofBits (F := Ideal) .f32 ew)))) hb) (ix2 p k)
      = lnOnePass (Ideal.ofBits .f32 Nw) (Ideal.ofBits .f32 ew) (fun j => v (ix2 p j)) k := by
  have hm : ∀ u : Fin 1, divf (shapeCast ⟨2, ![1024, 1]⟩ sums hc) (broadcast ⟨2, ![1024, 1]⟩ (Scalar.ofBits (F := Ideal) .f32 Nw)) (ix2 p u)
      = mean (Ideal.ofBits .f32 Nw) (fun j => v (ix2 p j)) := fun u => colMean Nw (fun p j => v (ix2 p j)) sums hs hc p u
  have hq : ∀ u : Fin 1, divf (shapeCast ⟨2, ![1024, 1]⟩ (multiReduction .add [1] ⟨1, ![1024]⟩ (mulf v v) 0x00000000#32 hred hφ hacc) hc)
        (broadcast ⟨2, ![1024, 1]⟩ (Scalar.ofBits (F := Ideal) .f32 Nw)) (ix2 p u)
      = Ideal.div (∑ j : Fin K, v (ix2 p j) * v (ix2 p j)) (Ideal.ofBits .f32 Nw) :=
    fun u => colMean Nw (fun p j => v (ix2 p j) * v (ix2 p j)) _ (fun p => rowSum (mulf v v) hred hφ hacc p) hc p u
  rw [mulf_apply, subf_apply, Cert.Lib.Keepdims.broadcastTo_a1_ab_apply, Cert.Lib.Keepdims.broadcastTo_a1_ab_apply, hm]
  rw [rsqrt_apply, addf_apply, subf_apply, mulf_apply, hm, hq]
  rfl

/-! ## The body's payloads at an entry -/

/-- The modulated conditioning row: the one-pass layer norm of row `p` of the conditioning block at `c`, times the
    weight at `c`; the change to the narrower float format is the identity. -/
theorem pay2_apply (v0 : Vec Ideal S1024x384 .f32) (v20 : Vec Ideal S1x384 .f32) (p : Fin 1024) (c : Fin 384) :
    k0_pay2 (F := Ideal) v0 v20 (ix2 p c) = lnOnePass N384 eps (fun j => v0 (ix2 p j)) c * v20 (ix2 (0 : Fin 1) c) := by
  unfold k0_pay2
  simp only [shapeCast_self]
  rw [truncf_apply, mulf_apply, broadcastTo_1b_ab_apply]
  refine congrArg (· * _) ?_
  exact lnBlock 0x43C00000#32 0x3727C5AC#32 v0 _ (fun p => rowSum v0 _ _ _ p) _ _ _ _ _ p c

/-- The gate: the logistic function of the modulated row against column `q` of the gate matrix, plus the bias at `q`. -/
theorem pay3_apply (v0 : Vec Ideal S1024x384 .f32) (v20 : Vec Ideal S1x384 .f32) (v25 : Vec Ideal S384x768 .bf16)
    (v28 : Vec Ideal S1x768 .f32) (p : Fin 1024) (q : Fin 768) :
    k0_pay3 (F := Ideal) v0 v20 v25 v28 (ix2 p q)
      = Ideal.logistic ((∑ c : Fin 384, k0_pay2 (F := Ideal) v0 v20 (ix2 p c) * v25 (ix2 c q)) + v28 (ix2 (0 : Fin 1) q)) := by
  unfold k0_pay3
  simp only [shapeCast_self, matmul]
  rw [logistic_apply, addf_apply, broadcastTo_1b_ab_apply]
  refine congrArg (fun z => Ideal.logistic (z + _)) ?_
  exact PlainMatmul.matmul_zero_apply dot_S1024x384_S384x768_S1024x768_1_0_0_1_n_n rfl rfl rfl rfl rfl rfl none
    (k0_pay2 (F := Ideal) v0 v20) v25 p q

/-- The shift: the modulated row against column `q` of the shift matrix. -/
theorem pay4_apply (v0 : Vec Ideal S1024x384 .f32) (v20 : Vec Ideal S1x384 .f32) (v33 : Vec Ideal S384x768 .bf16)
    (p : Fin 1024) (q : Fin 768) :
    k0_pay4 (F := Ideal) v0 v20 v33 (ix2 p q) = ∑ c : Fin 384, k0_pay2 (F := Ideal) v0 v20 (ix2 p c) * v33 (ix2 c q) := by
  unfold k0_pay4
  simp only [shapeCast_self, matmul]
  exact PlainMatmul.matmul_zero_apply dot_S1024x384_S384x768_S1024x768_1_0_0_1_n_n rfl rfl rfl rfl rfl rfl none
    (k0_pay2 (F := Ideal) v0 v20) v33 p q

theorem pay5_eq (v36 : Vec Ideal S1024x768 .f32) : k0_pay5 (F := Ideal) v36 = v36 := by
  unfold k0_pay5; exact shapeCast_self _ _

theorem pay6_apply (v36 : Vec Ideal S1024x768 .f32) (p : Fin 1024) :
    k0_pay6 (F := Ideal) v36 (ix1 p) = ∑ k : Fin 768, v36 (ix2 p k) := by
  unfold k0_pay6; rw [pay5_eq]; exact rowSum v36 _ _ _ p

/-- The stored value: the one-pass layer norm of the activations' row times the gate, plus the shift. -/
theorem pay1_apply (v32 v35 v37 : FVec Ideal S1024x768 .f32) (v38 : FVec Ideal S1024 .f32)
    (hs : ∀ p, v38 (ix1 p) = ∑ k : Fin 768, v37 (ix2 p k)) (p : Fin 1024) (q : Fin 768) :
    k0_pay1 (F := Ideal) v32 v35 v37 v38 (ix2 p q)
      = lnOnePass N768 eps (fun j => v37 (ix2 p j)) q * v32 (ix2 p q) + v35 (ix2 p q) := by
  unfold k0_pay1
  rw [addf_apply, mulf_apply]
  refine congrArg (fun z => z * _ + _) ?_
  exact lnBlock 0x44400000#32 0x3727C5AC#32 v37 v38 hs _ _ _ _ _ p q

/-! ## One entry of the output block -/

theorem offsets_zero : (![0, 0] : Fin 2 → Nat) = fun _ => 0 := funext fun a => by fin_cases a <;> rfl

/-- Entry `(p, q)` of the block the body stores, from the six input blocks: the one-pass entry function of row `p` of
    the activations' block, row `p` of the conditioning block, the weight row, column `q` of the two matrices and
    entry `q` of the bias row. -/
theorem out_entry (x0 : Vec Ideal S1024x768 .f32) (x1 : Vec Ideal S1024x384 .f32) (x2 : Vec Ideal S1x384 .f32)
    (x3 : Vec Ideal S384x768 .bf16) (x4 : Vec Ideal S1x768 .f32) (x5 : Vec Ideal S384x768 .bf16) (p : Fin 1024) (q : Fin 768) :
    out0_6 (F := Ideal) x0 x1 x2 x3 x4 x5 (ix2 p q)
      = entryOnePass (fun j => x0 (ix2 p j)) q (fun c => x1 (ix2 p c)) (fun c => x2 (ix2 (0 : Fin 1) c))
          (fun c => x3 (ix2 c q)) (fun c => x5 (ix2 c q)) (x4 (ix2 (0 : Fin 1) q)) := by
  unfold out0_6
  rw [View.canon_unit_zero offsets_zero]
  simp only [View.ld_unit_zero (S := S1024x384) offsets_zero, View.ld_unit_zero (S := S1x384) offsets_zero,
    View.ld_unit_zero (S := S384x768) offsets_zero, View.ld_unit_zero (S := S1x768) offsets_zero,
    View.ld_unit_zero (S := S1024x768) offsets_zero]
  rw [pay1_apply _ _ (k0_pay5 (F := Ideal) x0) (k0_pay6 (F := Ideal) x0) (fun p => by rw [pay5_eq]; exact pay6_apply x0 p) p q,
    pay5_eq, pay3_apply, pay4_apply]
  simp only [pay2_apply]
  rfl

end Cert.AdaLN.KernelSide
end
-- ==== Proof.KernelArray.lean ====
/-
  The kernel's output array after the run, as one function of the six arrays the region stages.

  The grid has 32 points. At point `t` the two row-blocked inputs (activations [32768, 768], conditioning input
  [32768, 384]) and the output are staged in blocks of 1024 rows, block row `t`; the weight row, the two matrices and
  the bias row are staged whole. So the block the body stores at point `t` holds, at `(p, q)`, the entry function of
  row `1024 t + p` and column `q`; every row `r` lies in the block of point `r / 1024`, every point writes its block
  back, and the blocks tile the array: the array ends holding that function at every index.
-/
import proofs.«156625_j86371792322640_2_alg».proof.Proof.KernelEntry
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.AdaLN.KernelArray

open Idealize.ShloMosaic.ValueIdx Cert.KernelIdeal Cert.KernelIdeal.Gen Cert.AdaLN Cert.AdaLN.KernelSide

variable (m : (ℓ : Loc nD τ sig) → Buf (Elt Ideal) ℓ) (ρ : Dev nD → PrngReg)

/-- The kernel's output array as one function of the six arrays the region stages, index by index: entry `(r, q)` is
    the one-pass entry function of row `r` of the two row-blocked arrays, the weight row, column `q` of the two matrices
    and entry `q` of the bias row. -/
def rows (A : S32768x768.Idx → EReal) (S : S32768x384.Idx → EReal) (w2 : S1x384.Idx → EReal) (Wg2 : S384x768.Idx → EReal)
    (bg2 : S1x768.Idx → EReal) (Wb2 : S384x768.Idx → EReal) (i : S32768x768.Idx) : EReal :=
  entryOnePass (fun j => A (ix2 (⟨(i 0).val, (i 0).isLt⟩ : Fin 32768) j)) (⟨(i 1).val, (i 1).isLt⟩ : Fin 768)
    (fun c => S (ix2 (⟨(i 0).val, (i 0).isLt⟩ : Fin 32768) c)) (fun c => w2 (ix2 (0 : Fin 1) c))
    (fun c => Wg2 (ix2 c (⟨(i 1).val, (i 1).isLt⟩ : Fin 768))) (fun c => Wb2 (ix2 c (⟨(i 1).val, (i 1).isLt⟩ : Fin 768)))
    (bg2 (ix2 (0 : Fin 1) (⟨(i 1).val, (i 1).isLt⟩ : Fin 768)))

/-- Block `t` of the output from blocks that are rows `1024 t … 1024 t + 1023` of the row-blocked arrays and the whole of
    the others: entry `(p, q)` of the stored block is entry `(1024 t + p, q)` of `rows`. -/
theorem block_entry (A : S32768x768.Idx → EReal) (S : S32768x384.Idx → EReal) (w2 : S1x384.Idx → EReal) (Wg2 : S384x768.Idx → EReal)
    (bg2 : S1x768.Idx → EReal) (Wb2 : S384x768.Idx → EReal)
    (x0 : Vec Ideal S1024x768 .f32) (x1 : Vec Ideal S1024x384 .f32) (x2 : Vec Ideal S1x384 .f32)
    (x3 : Vec Ideal S384x768 .bf16) (x4 : Vec Ideal S1x768 .f32) (x5 : Vec Ideal S384x768 .bf16) (t : ℕ) (ht : t < 32)
    (h0 : ∀ (p : Fin 1024) (j : Fin 768), x0 (ix2 p j) = A (ix2 (⟨1024 * t + p.val, by have := p.isLt; omega⟩ : Fin 32768) j))
    (h1 : ∀ (p : Fin 1024) (c : Fin 384), x1 (ix2 p c) = S (ix2 (⟨1024 * t + p.val, by have := p.isLt; omega⟩ : Fin 32768) c))
    (h2 : x2 = w2) (h3 : x3 = Wg2) (h4 : x4 = bg2) (h5 : x5 = Wb2) (p : Fin 1024) (q : Fin 768) :
    out0_6 (F := Ideal) x0 x1 x2 x3 x4 x5 (ix2 p q)
      = rows A S w2 Wg2 bg2 Wb2 (ix2 (⟨1024 * t + p.val, by have := p.isLt; omega⟩ : Fin 32768) q) := by
  subst h2 h3 h4 h5
  rw [out_entry]
  unfold rows
  simp only [h0, h1]

/-- The printed index maps over the grid: the row-blocked windows (activations, conditioning input, output) sit at block
    row `t`, block column `0`; the four parameter windows at block `(0, 0)` at every point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input windows' blocks, read off their arrays -/

/-- Window 0's block at point `t` is rows `1024 t … 1024 t + 1023` of its array. -/
theorem read0 (t : Fin cfg0.N) (A : S32768x768.Idx → EReal) (p : Fin 1024) (j : Fin 768) (r : Fin 32768)
    (hr : r.val = 1024 * t.val + p.val) :
    (((cfg0.win 0).blk t).view.read (Elt Ideal) A : Vec Ideal S1024x768 .f32) (ix2 p j) = A (ix2 r j) := by
  obtain ⟨e0, e1, -⟩ := idx_facts t
  rw [View.read_apply]
  refine congrArg A ?_
  funext a; apply Fin.ext
  match a with
  | ⟨0, _⟩ => show win0_0.index t (0 : Fin 2) * 1024 + 1 * p.val = r.val; rw [e0, hr]; omega
  | ⟨1, _⟩ => show win0_0.index t (1 : Fin 2) * 768 + 1 * j.val = j.val; rw [e1]; omega

/-- Window 1's block at point `t` is rows `1024 t … 1024 t + 1023` of its array. -/
theorem read1 (t : Fin cfg0.N) (A : S32768x384.Idx → EReal) (p : Fin 1024) (j : Fin 384) (r : Fin 32768)
    (hr : r.val = 1024 * t.val + p.val) :
    (((cfg0.win 1).blk t).view.read (Elt Ideal) A : Vec Ideal S1024x384 .f32) (ix2 p j) = A (ix2 r j) := by
  obtain ⟨-, -, e0, e1, -⟩ := idx_facts t
  rw [View.read_apply]
  refine congrArg A ?_
  funext a; apply Fin.ext
  match a with
  | ⟨0, _⟩ => show win0_1.index t (0 : Fin 2) * 1024 + 1 * p.val = r.val; rw [e0, hr]; omega
  | ⟨1, _⟩ => show win0_1.index t (1 : Fin 2) * 384 + 1 * j.val = j.val; rw [e1]; omega

/-- Windows 2 to 5 stage their whole arrays at every point. -/
theorem read2 (t : Fin cfg0.N) (A : S1x384.Idx → EReal) :
    (((cfg0.win 2).blk t).view.read (Elt Ideal) A : Vec Ideal S1x384 .f32) = A := by
  obtain ⟨-, -, -, -, e0, e1, -⟩ := idx_facts t
  funext x
  rw [View.read_apply]
  refine congrArg A ?_
  funext a; apply Fin.ext
  match a with
  | ⟨0, _⟩ => show win0_2.index t (0 : Fin 2) * 1 + 1 * (x 0).val = (x 0).val; rw [e0]; omega
  | ⟨1, _⟩ => show win0_2.index t (1 : Fin 2) * 384 + 1 * (x 1).val = (x 1).val; rw [e1]; omega

theorem read3 (t : Fin cfg0.N) (A : S384x768.Idx → EReal) :
    (((cfg0.win 3).blk t).view.read (Elt Ideal) A : Vec Ideal S384x768 .bf16) = A := by
  obtain ⟨-, -, -, -, -, -, e0, e1, -⟩ := idx_facts t
  funext x
  rw [View.read_apply]
  refine congrArg A ?_
  funext a; apply Fin.ext
  match a with
  | ⟨0, _⟩ => show win0_3.index t (0 : Fin 2) * 384 + 1 * (x 0).val = (x 0).val; rw [e0]; omega
  | ⟨1, _⟩ => show win0_3.index t (1 : Fin 2) * 768 + 1 * (x 1).val = (x 1).val; rw [e1]; omega

theorem read4 (t : Fin cfg0.N) (A : S1x768.Idx → EReal) :
    (((cfg0.win 4).blk t).view.read (Elt Ideal) A : Vec Ideal S1x768 .f32) = A := by
  obtain ⟨-, -, -, -, -, -, -, -, e0, e1, -⟩ := idx_facts t
  funext x
  rw [View.read_apply]
  refine congrArg A ?_
  funext a; apply Fin.ext
  match a with
  | ⟨0, _⟩ => show win0_4.index t (0 : Fin 2) * 1 + 1 * (x 0).val = (x 0).val; rw [e0]; omega
  | ⟨1, _⟩ => show win0_4.index t (1 : Fin 2) * 768 + 1 * (x 1).val = (x 1).val; rw [e1]; omega

theorem read5 (t : Fin cfg0.N) (A : S384x768.Idx → EReal) :
    (((cfg0.win 5).blk t).view.read (Elt Ideal) A : Vec Ideal S384x768 .bf16) = A := by
  obtain ⟨-, -, -, -, -, -, -, -, -, -, e0, e1, -⟩ := idx_facts t
  funext x
  rw [View.read_apply]
  refine congrArg A ?_
  funext a; apply Fin.ext
  match a with
  | ⟨0, _⟩ => show win0_5.index t (0 : Fin 2) * 384 + 1 * (x 0).val = (x 0).val; rw [e0]; omega
  | ⟨1, _⟩ => show win0_5.index t (1 : Fin 2) * 768 + 1 * (x 1).val = (x 1).val; rw [e1]; omega

/-- Entry `(p, q)` of the output window's block at point `t` sits at `(1024 t + p, q)` of its array. -/
theorem emb6 (t : Fin cfg0.N) (p : Fin 1024) (q : Fin 768) (r : Fin 32768) (hr : r.val = 1024 * t.val + p.val) :
    ((cfg0.win 6).blk t).view.emb (ix2 p q) = (ix2 r q : S32768x768.Idx) := by
  obtain ⟨-, -, -, -, -, -, -, -, -, -, -, -, e0, e1⟩ := idx_facts t
  funext a; apply Fin.ext
  match a with
  | ⟨0, _⟩ => show win0_6.index t (0 : Fin 2) * 1024 + 1 * p.val = r.val; rw [e0, hr]; omega
  | ⟨1, _⟩ => show win0_6.index t (1 : Fin 2) * 768 + 1 * q.val = q.val; rw [e1]; omega

/-! ## From blocks to the array -/

/-- What point `t` writes back is block `t` of `rows` of the arrays as the region finds them. -/
theorem flushed_eq (c : Dev nD) (t : Fin cfg0.N) :
    (dats m 0 c).flushed 6 t = ((cfg0.win 6).blk t).view.read (Elt Ideal)
      (rows (V m c main_v0) (V m c main_v1) (V m c main_v2) (V m c main_v5) (V m c main_v3) (V m c main_v7)) := by
  have hN : cfg0.N = 32 := N_0
  have ht : t.val < 32 := by have := t.isLt; omega
  show (cfg0.win 6).cut (grid0.coords t) ((dats m 0 c).after 6 t) = _
  rw [after0_6]
  refine funext fun (y : S1024x768.Idx) => ?_
  obtain ⟨p, q, rfl⟩ : ∃ (p : Fin 1024) (q : Fin 768), y = ix2 p q := ⟨y 0, y 1, eq_ix2 y⟩
  rw [View.read_apply, emb6 t p q ⟨1024 * t.val + p.val, by have := p.isLt; omega⟩ rfl]
  exact block_entry (V m c main_v0) (V m c main_v1) (V m c main_v2) (V m c main_v5) (V m c main_v3) (V m c main_v7)
    (iblk m c 0 t) (iblk m c 1 t) (iblk m c 2 t) (iblk m c 3 t) (iblk m c 4 t) (iblk m c 5 t) t.val ht
    (fun p j => read0 t _ p j _ rfl) (fun p j => read1 t _ p j _ rfl) (read2 t _) (read3 t _) (read4 t _) (read5 t _) p q

/-- An index of the array is in point `t`'s block iff each coordinate is in the block's range on its axis. -/
theorem mem_blk6 (t : Fin cfg0.N) (i : S32768x768.Idx) :
    i ∈ ((cfg0.win 6).blk t).view.set ↔ ∀ a : Fin 2, win0_6.index t a * S1024x768.size a ≤ (i a).val
      ∧ (i a).val < win0_6.index t a * S1024x768.size a + S1024x768.size a := by
  show i ∈ ((View.whole main_v8).slice (win0_6.rect t)).set ↔ _
  rw [View.set_slice_whole, Rect.mem_set_unit]
  exact Iff.rfl

/-- Every row `r` of the array is in the block of point `r / 1024`, and every point writes back. -/
theorem cover (i : S32768x768.Idx) : ∃ t : Fin cfg0.N, (cfg0.win 6).flush t = true ∧ i ∈ ((cfg0.win 6).blk t).view.set := by
  have hN : cfg0.N = 32 := N_0
  have h0 : (i 0).val < 32768 := (i 0).isLt
  have h1 : (i 1).val < 768 := (i 1).isLt
  have hlt : (i 0).val / 1024 < cfg0.N := by rw [hN]; omega
  obtain ⟨-, -, -, -, -, -, -, -, -, -, -, -, e0, e1⟩ := idx_facts ⟨(i 0).val / 1024, hlt⟩
  refine ⟨⟨(i 0).val / 1024, hlt⟩, flush0_6 _, ?_⟩
  rw [mem_blk6]
  intro a
  match a with
  | ⟨0, _⟩ =>
    show win0_6.index ⟨(i 0).val / 1024, hlt⟩ (0 : Fin 2) * 1024 ≤ (i 0).val
      ∧ (i 0).val < win0_6.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, hlt⟩ (1 : Fin 2) * 768 ≤ (i 1).val
      ∧ (i 1).val < win0_6.index ⟨(i 0).val / 1024, hlt⟩ (1 : Fin 2) * 768 + 768
    rw [e1]; omega

/-- The output array after the run: `rows` of the six staged arrays. -/
theorem final (c : Dev nD) : (dats m 0 c).arrAt 6 cfg0.N
    = rows (V m c main_v0) (V m c main_v1) (V m c main_v2) (V m c main_v5) (V m c main_v3) (V m c main_v7) :=
  (dats m 0 c).arrAt_eq_of_cover 6 _ (fun t _ => flushed_eq m c t) cover

end Cert.AdaLN.KernelArray
end
-- ==== Proof.LibMergeRows.lean ====
/-
  Merging the two leading axes of a rank-3 array into one, and splitting them again, read at an index.

  A row-major re-layout keeps every element's position. Position of `(b, n, j)` in `[A, B, K]` is
  `(b · B + n) · K + j`; position of `(r, j)` in `[R, K]` is `r · K + j`. So with `r = b · B + n` the cast of an
  `[A, B, K]` array to `[R, K]` reads at `(r, j)` the operand at `(b, n, j)`, and the cast back reads at `(b, n, j)`
  the operand at `(r, j)`.
-/
import Idealize.ShloMosaic.Lib.Pipeline.Value
import Idealize.ShloMosaic.Lib.ValueIdx

namespace Cert.Lib.MergeRows

open Idealize.ShloMosaic Idealize.ShloMosaic.ValueIdx

variable {α : Type}

/-- `[A, B, K]` cast to `[R, K]`: entry `(r, j)` with `r = b · B + n` is the operand's entry `(b, n, j)`. -/
theorem merge_apply {A B K R : ℕ} (x : (⟨3, ![A, B, K]⟩ : Shape).Idx → α)
    (h : (⟨3, ![A, B, K]⟩ : Shape).ShapeCasts ⟨2, ![R, K]⟩) (b : Fin A) (n : Fin B) (j : Fin K) (r : Fin R)
    (hr : r.val = b.val * B + n.val) : shapeCast ⟨2, ![R, K]⟩ x h (ix2 r j) = x (ix3 b n j) :=
  shapeCast_apply x h _ _ (by
    rw [Shape.rowMajor_val_three, Shape.rowMajor_val_two]
    show (b.val * B + n.val) * K + j.val = r.val * K + j.val
    rw [hr])

/-- `[R, K]` cast to `[A, B, K]`: entry `(b, n, j)` is the operand's entry `(r, j)` with `r = b · B + n`. -/
theorem split_apply {A B K R : ℕ} (x : (⟨2, ![R, K]⟩ : Shape).Idx → α)
    (h : (⟨2, ![R, K]⟩ : Shape).ShapeCasts ⟨3, ![A, B, K]⟩) (b : Fin A) (n : Fin B) (j : Fin K) (r : Fin R)
    (hr : r.val = b.val * B + n.val) : shapeCast ⟨3, ![A, B, K]⟩ x h (ix3 b n j) = x (ix2 r j) :=
  shapeCast_apply x h _ _ (by
    rw [Shape.rowMajor_val_three, Shape.rowMajor_val_two]
    show r.val * K + j.val = (b.val * B + n.val) * K + j.val
    rw [hr])

end Cert.Lib.MergeRows
-- ==== Proof.Result.lean ====
/-
  The result both programs compute, as one function of the six argument arrays, index by index.

  The arrays are `a : [4, 8192, 768]`, `s : [4, 8192, 384]`, the conditioning norm's weight `w : [384]`, the gate
  matrix `Wg : [768, 384]`, the gate bias `bg : [768]` and the shift matrix `Wb : [768, 384]`. Entry `(b, n, q)` of
  the result is the two-pass entry function of row `(b, n)` of `a` and of `s`, the weight, row `q` of the two
  matrices and entry `q` of the bias.
-/
import proofs.«156625_j86371792322640_2_alg».proof.Proof.Spec
import Idealize.ShloMosaic.Lib.ValueIdx

noncomputable section

open scoped BigOperators

namespace Cert.AdaLN

open Idealize.ShloMosaic Idealize.ShloMosaic.ValueIdx

/-- The adaptive layer norm of `a` conditioned on `s`, entry by entry, in the two-pass spelling. -/
def result (a : (⟨3, ![4, 8192, 768]⟩ : Shape).Idx → EReal) (s : (⟨3, ![4, 8192, 384]⟩ : Shape).Idx → EReal)
    (w : (⟨1, ![384]⟩ : Shape).Idx → EReal) (Wg : (⟨2, ![768, 384]⟩ : Shape).Idx → EReal)
    (bg : (⟨1, ![768]⟩ : Shape).Idx → EReal) (Wb : (⟨2, ![768, 384]⟩ : Shape).Idx → EReal)
    (i : (⟨3, ![4, 8192, 768]⟩ : Shape).Idx) : EReal :=
  entryTwoPass (fun j => a (ix3 (⟨(i 0).val, (i 0).isLt⟩ : Fin 4) (⟨(i 1).val, (i 1).isLt⟩ : Fin 8192) j))
    (⟨(i 2).val, (i 2).isLt⟩ : Fin 768)
    (fun c => s (ix3 (⟨(i 0).val, (i 0).isLt⟩ : Fin 4) (⟨(i 1).val, (i 1).isLt⟩ : Fin 8192) c))
    (fun c => w (ix1 c)) (fun c => Wg (ix2 (⟨(i 2).val, (i 2).isLt⟩ : Fin 768) c))
    (fun c => Wb (ix2 (⟨(i 2).val, (i 2).isLt⟩ : Fin 768) c)) (bg (ix1 (⟨(i 2).val, (i 2).isLt⟩ : Fin 768)))

/-- `result` at an index given by its coordinates. -/
theorem result_apply (a : (⟨3, ![4, 8192, 768]⟩ : Shape).Idx → EReal) (s : (⟨3, ![4, 8192, 384]⟩ : Shape).Idx → EReal)
    (w : (⟨1, ![384]⟩ : Shape).Idx → EReal) (Wg : (⟨2, ![768, 384]⟩ : Shape).Idx → EReal)
    (bg : (⟨1, ![768]⟩ : Shape).Idx → EReal) (Wb : (⟨2, ![768, 384]⟩ : Shape).Idx → EReal)
    (b : Fin 4) (n : Fin 8192) (q : Fin 768) :
    result a s w Wg bg Wb (ix3 b n q)
      = entryTwoPass (fun j => a (ix3 b n j)) q (fun c => s (ix3 b n c)) (fun c => w (ix1 c)) (fun c => Wg (ix2 q c))
          (fun c => Wb (ix2 q c)) (bg (ix1 q)) := rfl

end Cert.AdaLN

end
-- ==== Proof.NormAlgebra.lean ====
/-
  The two spellings of the layer norm agree on rows of finite numbers.

  For a row of reals f with n > 0 entries and mean μ = (∑ f) / n, the one-pass variance (∑ f²) / n − μ² equals the
  two-pass variance (∑ (f − μ)²) / n, which is a mean of squares and so nonnegative. Adding a positive offset ε gives
  a positive real r, at which the extended-real square root and reciprocal square root are the real ones,
  √r ≠ 0, and dividing by √r is multiplying by (√r)⁻¹. Both layer norms are then the coercion of the real
  (f k − μ) · (√r)⁻¹. The logistic function is by definition 1 / (1 + exp (−z)), so the two output entries agree
  once the literal one is evaluated.
-/
import proofs.«156625_j86371792322640_2_alg».proof.Proof.Spec

noncomputable section

open scoped BigOperators

namespace Cert.AdaLN

open Idealize.ShloMosaic

/-! ### The float literals -/

theorem N384_eq : N384 = ((384 : ℝ) : EReal) := by
  unfold N384
  simp [Ideal.ofBits, Ideal.ieee, -EReal.coe_mul]; norm_num

theorem N768_eq : N768 = ((768 : ℝ) : EReal) := by
  unfold N768
  simp [Ideal.ofBits, Ideal.ieee, -EReal.coe_mul]; norm_num

theorem one_eq : one = 1 := by
  unfold one
  simp [Ideal.ofBits, Ideal.ieee, -EReal.coe_mul]; norm_num

/-- The offset is the positive normal float (2^23 + 0x27C5AC) · 2^(110 − 127 − 23). -/
theorem eps_pos : ∃ ε : ℝ, 0 < ε ∧ eps = (ε : EReal) := by
  unfold eps
  simp [Ideal.ofBits, Ideal.ieee, -EReal.coe_mul]

/-! ### Sums of finite numbers are finite -/

/-- A finite sum of coerced reals is the coercion of the real sum. -/
theorem coe_sum {ι : Type} (s : Finset ι) (g : ι → ℝ) :
    (∑ j ∈ s, ((g j : ℝ) : EReal)) = ((∑ j ∈ s, g j : ℝ) : EReal) := by
  classical
  induction s using Finset.induction_on with
  | empty => simp
  | insert a s ha ih => rw [Finset.sum_insert ha, Finset.sum_insert ha, ih, EReal.coe_add]

/-- The sum of squares of a coerced row. -/
theorem sumsq_coe {n : ℕ} (f : Fin n → ℝ) :
    (∑ j, (f j : EReal) * (f j : EReal)) = ((∑ j, f j * f j : ℝ) : EReal) := by
  rw [← coe_sum]
  exact Finset.sum_congr rfl (fun j _ => (EReal.coe_mul _ _).symm)

/-- The sum of squared deviations of a coerced row from a real. -/
theorem sumdev_coe {n : ℕ} (f : Fin n → ℝ) (μ : ℝ) :
    (∑ j, ((f j : EReal) - (μ : EReal)) * ((f j : EReal) - (μ : EReal)))
      = ((∑ j, (f j - μ) * (f j - μ) : ℝ) : EReal) := by
  rw [← coe_sum]
  refine Finset.sum_congr rfl (fun j _ => ?_)
  rw [EReal.coe_mul, EReal.coe_sub]

/-! ### The real mean and variance -/

/-- The real mean of a real row. -/
def rmean {n : ℕ} (f : Fin n → ℝ) : ℝ := (∑ j, f j) / n

/-- The real two-pass variance of a real row. -/
def rvar {n : ℕ} (f : Fin n → ℝ) : ℝ := (∑ j, (f j - rmean f) * (f j - rmean f)) / n

/-- The mean of a coerced row over the count n ≠ 0 is the coerced real mean. -/
theorem mean_coe {n : ℕ} (hn : (n : ℝ) ≠ 0) (f : Fin n → ℝ) :
    mean ((n : ℝ) : EReal) (fun j => (f j : EReal)) = ((rmean f : ℝ) : EReal) := by
  rw [mean, coe_sum, Ideal.div_coe hn, ← EReal.coe_mul, rmean, mul_one_div]

/-- The one-pass variance equals the two-pass variance: expand the square and use ∑ f = n μ. -/
theorem onePass_var_eq {n : ℕ} (hn : (n : ℝ) ≠ 0) (f : Fin n → ℝ) :
    (∑ j, f j * f j) * (1 / (n : ℝ)) - rmean f * rmean f = rvar f := by
  have hS : ∑ j, f j = n * rmean f := by rw [rmean]; field_simp
  have h1 : ∑ j, (f j - rmean f) * (f j - rmean f)
      = ∑ j, f j * f j - 2 * rmean f * ∑ j, f j + n * (rmean f * rmean f) := by
    have h2 : ∀ j, (f j - rmean f) * (f j - rmean f)
        = f j * f j - 2 * rmean f * f j + rmean f * rmean f := fun j => by ring
    simp only [h2, Finset.sum_add_distrib, Finset.sum_sub_distrib, ← Finset.mul_sum, Finset.sum_const,
      Finset.card_univ, Fintype.card_fin, nsmul_eq_mul]
    ring
  rw [rvar, h1, hS]
  field_simp
  ring

/-- The two-pass variance is a mean of squares, hence nonnegative. -/
theorem rvar_nonneg {n : ℕ} (f : Fin n → ℝ) : 0 ≤ rvar f :=
  div_nonneg (Finset.sum_nonneg (fun j _ => mul_self_nonneg _)) (Nat.cast_nonneg n)

/-! ### Square root and reciprocal square root at a positive real -/

theorem rsqrt_of_pos {r : ℝ} (hr : 0 < r) : Ideal.rsqrt (r : EReal) = (((Real.sqrt r)⁻¹ : ℝ) : EReal) := by
  rw [Ideal.rsqrt_coe, if_neg (not_lt.mpr hr.le), if_neg hr.ne']

theorem sqrt_of_pos {r : ℝ} (hr : 0 < r) : Ideal.sqrt (r : EReal) = ((Real.sqrt r : ℝ) : EReal) := by
  rw [Ideal.sqrt_coe, if_neg (not_lt.mpr hr.le)]

/-! ### Both layer norms as one real -/

/-- The one-pass layer norm of a coerced row is the coerced real (f k − μ) · (√(v + ε))⁻¹. -/
theorem lnOnePass_coe {n : ℕ} (hn : (n : ℝ) ≠ 0) {ε : ℝ} (hε : 0 < ε) (f : Fin n → ℝ) (k : Fin n) :
    lnOnePass ((n : ℝ) : EReal) (ε : EReal) (fun j => (f j : EReal)) k
      = (((f k - rmean f) * (Real.sqrt (rvar f + ε))⁻¹ : ℝ) : EReal) := by
  have hpos : 0 < rvar f + ε := add_pos_of_nonneg_of_pos (rvar_nonneg f) hε
  rw [lnOnePass, mean_coe hn, sumsq_coe, Ideal.div_coe hn, ← EReal.coe_mul, ← EReal.coe_mul, ← EReal.coe_sub,
    ← EReal.coe_sub, ← EReal.coe_add, onePass_var_eq hn, rsqrt_of_pos hpos, ← EReal.coe_mul]

/-- The two-pass layer norm of a coerced row is the same coerced real. -/
theorem lnTwoPass_coe {n : ℕ} (hn : (n : ℝ) ≠ 0) {ε : ℝ} (hε : 0 < ε) (f : Fin n → ℝ) (k : Fin n) :
    lnTwoPass ((n : ℝ) : EReal) (ε : EReal) (fun j => (f j : EReal)) k
      = (((f k - rmean f) * (Real.sqrt (rvar f + ε))⁻¹ : ℝ) : EReal) := by
  have hpos : 0 < rvar f + ε := add_pos_of_nonneg_of_pos (rvar_nonneg f) hε
  have hsq : Real.sqrt (rvar f + ε) ≠ 0 := (Real.sqrt_pos.mpr hpos).ne'
  rw [lnTwoPass, mean_coe hn, sumdev_coe, Ideal.div_coe hn, ← EReal.coe_mul, ← EReal.coe_add, ← EReal.coe_sub,
    mul_one_div, ← rvar, sqrt_of_pos hpos, Ideal.div_coe hsq, ← EReal.coe_mul, one_div]

/-! ### The two layer norms agree -/

theorem lnOnePass_eq_lnTwoPass {n : ℕ} (hn : 0 < n) (N e : EReal) (hN : N = ((n : ℝ) : EReal))
    (he : ∃ ε : ℝ, 0 < ε ∧ e = (ε : EReal))
    (x : Fin n → EReal) (hx : ∀ j, ∃ r : ℝ, x j = (r : EReal)) (k : Fin n) :
    lnOnePass N e x k = lnTwoPass N e x k := by
  obtain ⟨ε, hε, rfl⟩ := he
  choose f hf using hx
  have hxf : x = fun j => (f j : EReal) := funext hf
  have hn' : (n : ℝ) ≠ 0 := Nat.cast_ne_zero.mpr hn.ne'
  subst hN
  subst hxf
  rw [lnOnePass_coe hn' hε, lnTwoPass_coe hn' hε]

/-! ### The two output entries agree -/

theorem entryOnePass_eq_entryTwoPass (aRow : Fin 768 → EReal) (q : Fin 768) (sRow w wg wb : Fin 384 → EReal)
    (bgq : EReal) (ha : ∀ j, ∃ r : ℝ, aRow j = (r : EReal)) (hs : ∀ c, ∃ r : ℝ, sRow c = (r : EReal)) :
    entryOnePass aRow q sRow w wg wb bgq = entryTwoPass aRow q sRow w wg wb bgq := by
  have hA : ∀ k, lnOnePass N768 eps aRow k = lnTwoPass N768 eps aRow k :=
    lnOnePass_eq_lnTwoPass (by norm_num) N768 eps (by rw [N768_eq, Nat.cast_ofNat]) eps_pos aRow ha
  have hS : ∀ c, lnOnePass N384 eps sRow c = lnTwoPass N384 eps sRow c :=
    lnOnePass_eq_lnTwoPass (by norm_num) N384 eps (by rw [N384_eq, Nat.cast_ofNat]) eps_pos sRow hs
  unfold entryOnePass entryTwoPass
  simp only [hA, hS]
  rw [one_eq, Ideal.logistic]

end Cert.AdaLN

end
-- ==== Proof.KernelResult.lean ====
/-
  The idealized kernel's result buffer, from the arguments.

  Before the region the host re-lays the arguments: `a` and `s` with their two leading axes merged into 32768 rows,
  the weight and the bias as one row each, the two [768, 384] matrices transposed to [384, 768] (the change of float
  format that follows is the identity over the extended reals). After the region the host splits the output's rows
  back into [4, 8192]. Row `(b, n)` of an argument is row `8192 b + n` of its merged form, a one-row array read at
  `(0, k)` is the vector at `k`, a transposed matrix read at `(k, q)` is the matrix at `(q, k)`. So entry `(b, n, q)`
  of the result is the one-pass entry function of the arguments' rows and columns, which on finite `a` and `s` is the
  two-pass one.
-/
import proofs.«156625_j86371792322640_2_alg».proof.Proof.KernelArray
import proofs.«156625_j86371792322640_2_alg».proof.Proof.LibMergeRows
import proofs.«156625_j86371792322640_2_alg».proof.Proof.Result
import proofs.«156625_j86371792322640_2_alg».proof.Proof.NormAlgebra
import Idealize.ShloMosaic.Lib.ValueLayout
import Idealize.ShloMosaic.Lib.StableHlo.Run
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.AdaLN.KernelResult

open Idealize.ShloMosaic.ValueIdx Cert.KernelIdeal Cert.KernelIdeal.Gen Cert.AdaLN Cert.AdaLN.KernelArray

variable (m : (ℓ : Loc nD τ sig) → Buf (Elt Ideal) ℓ) (ρ : Dev nD → PrngReg)

/-! ## The staged arrays, from the arguments -/

theorem staged_v0 (c : Dev nD) : (V m c main_v0 : S32768x768.Idx → EReal)
    = shapeCast S32768x768 (m ((c : Thread nD τ).loc main_arg0)) Facts₀.shapeCasts_S4x8192x768_S32768x768 := by
  show StableHlo.after hostOps0 (fun b => m (c, b)) (Proc.devRef .tc main_v0) = _
  after_results; rfl

theorem staged_v1 (c : Dev nD) : (V m c main_v1 : S32768x384.Idx → EReal)
    = shapeCast S32768x384 (m ((c : Thread nD τ).loc main_arg1)) Facts₀.shapeCasts_S4x8192x384_S32768x384 := by
  show StableHlo.after hostOps0 (fun b => m (c, b)) (Proc.devRef .tc main_v1) = _
  after_results; rfl

theorem staged_v2 (c : Dev nD) : (V m c main_v2 : S1x384.Idx → EReal)
    = shapeCast S1x384 (m ((c : Thread nD τ).loc main_arg2)) Facts₀.shapeCasts_S384_S1x384 := by
  show StableHlo.after hostOps0 (fun b => m (c, b)) (Proc.devRef .tc main_v2) = _
  after_results; rfl

theorem staged_v3 (c : Dev nD) : (V m c main_v3 : S1x768.Idx → EReal)
    = shapeCast S1x768 (m ((c : Thread nD τ).loc main_arg4)) Facts₀.shapeCasts_S768_S1x768 := by
  show StableHlo.after hostOps0 (fun b => m (c, b)) (Proc.devRef .tc main_v3) = _
  after_results; rfl

theorem staged_v5 (c : Dev nD) : (V m c main_v5 : S384x768.Idx → EReal)
    = (truncf (F := Ideal) .bf16 (transpose S384x768 [1, 0] (m ((c : Thread nD τ).loc main_arg3) : FVec Ideal S768x384 .f32) Facts₀.transposes_S768x384_S384x768_1_0) Facts₀.bitsLt_bf16_f32 : FVec Ideal S384x768 .bf16) := by
  show StableHlo.after hostOps0 (fun b => m (c, b)) (Proc.devRef .tc main_v5) = _
  after_results

theorem staged_v7 (c : Dev nD) : (V m c main_v7 : S384x768.Idx → EReal)
    = (truncf (F := Ideal) .bf16 (transpose S384x768 [1, 0] (m ((c : Thread nD τ).loc main_arg5) : FVec Ideal S768x384 .f32) Facts₀.transposes_S768x384_S384x768_1_0) Facts₀.bitsLt_bf16_f32 : FVec Ideal S384x768 .bf16) := by
  show StableHlo.after hostOps0 (fun b => m (c, b)) (Proc.devRef .tc main_v7) = _
  after_results

/-- The result buffer after the host reshape that follows the region: the output array with its rows split. -/
theorem tail_v9 (c : Dev nD) : (Pipeline.afterTail₀ cfgs (dats m) 0 (V0 m) [hostOps1] c main_v9 : S4x8192x768.Idx → EReal)
    = shapeCast S4x8192x768 (rows (V m c main_v0) (V m c main_v1) (V m c main_v2) (V m c main_v5) (V m c main_v3) (V m c main_v7))
        Facts₀.shapeCasts_S32768x768_S4x8192x768 := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.tc.devRef main_v8)
      = rows (V m c main_v0) (V m c main_v1) (V m c main_v2) (V m c main_v5) (V m c main_v3) (V m c main_v7)
    from (Pipeline.withArrays_arr spec0 launch0.win.arr_inj c _ _ 6).trans (final m c)]
  rfl

/-! ## The result at an index, from the arguments -/

/-- Entry `(b, n, q)` of the result buffer is the one-pass entry function of row `(b, n)` of the two big arguments,
    the weight, row `q` of the two matrices (the staged matrices are their transposes) and entry `q` of the bias. -/
theorem kernel_entry (c : Dev nD) (b : Fin 4) (n : Fin 8192) (q : Fin 768) :
    (Pipeline.afterTail₀ cfgs (dats m) 0 (V0 m) [hostOps1] c main_v9 : S4x8192x768.Idx → EReal) (ix3 b n q)
      = entryOnePass (fun j => (m ((c : Thread nD τ).loc main_arg0) : S4x8192x768.Idx → EReal) (ix3 b n j)) q
          (fun k => (m ((c : Thread nD τ).loc main_arg1) : S4x8192x384.Idx → EReal) (ix3 b n k))
          (fun k => (m ((c : Thread nD τ).loc main_arg2) : S384.Idx → EReal) (ix1 k))
          (fun k => (m ((c : Thread nD τ).loc main_arg3) : S768x384.Idx → EReal) (ix2 q k))
          (fun k => (m ((c : Thread nD τ).loc main_arg5) : S768x384.Idx → EReal) (ix2 q k))
          ((m ((c : Thread nD τ).loc main_arg4) : S768.Idx → EReal) (ix1 q)) := by
  have hr : b.val * 8192 + n.val < 32768 := by have := b.isLt; have := n.isLt; omega
  rw [tail_v9, Cert.Lib.MergeRows.split_apply _ _ b n q ⟨b.val * 8192 + n.val, hr⟩ rfl]
  show entryOnePass (fun j => V m c main_v0 (ix2 (⟨b.val * 8192 + n.val, hr⟩ : Fin 32768) j)) q
      (fun k => V m c main_v1 (ix2 (⟨b.val * 8192 + n.val, hr⟩ : Fin 32768) k)) (fun k => V m c main_v2 (ix2 (0 : Fin 1) k))
      (fun k => V m c main_v5 (ix2 k q)) (fun k => V m c main_v7 (ix2 k q)) (V m c main_v3 (ix2 (0 : Fin 1) q)) = _
  have e0 : ∀ j : Fin 768, (V m c main_v0 : S32768x768.Idx → EReal) (ix2 (⟨b.val * 8192 + n.val, hr⟩ : Fin 32768) j)
      = (m ((c : Thread nD τ).loc main_arg0) : S4x8192x768.Idx → EReal) (ix3 b n j) := fun j => by
    rw [staged_v0]; exact Cert.Lib.MergeRows.merge_apply _ _ b n j _ rfl
  have e1 : ∀ k : Fin 384, (V m c main_v1 : S32768x384.Idx → EReal) (ix2 (⟨b.val * 8192 + n.val, hr⟩ : Fin 32768) k)
      = (m ((c : Thread nD τ).loc main_arg1) : S4x8192x384.Idx → EReal) (ix3 b n k) := fun k => by
    rw [staged_v1]; exact Cert.Lib.MergeRows.merge_apply _ _ b n k _ rfl
  have e2 : ∀ k : Fin 384, (V m c main_v2 : S1x384.Idx → EReal) (ix2 (0 : Fin 1) k)
      = (m ((c : Thread nD τ).loc main_arg2) : S384.Idx → EReal) (ix1 k) := fun k => by
    rw [staged_v2]; exact shapeCast_a_1a_apply _ _ 0 k
  have e3 : (V m c main_v3 : S1x768.Idx → EReal) (ix2 (0 : Fin 1) q)
      = (m ((c : Thread nD τ).loc main_arg4) : S768.Idx → EReal) (ix1 q) := by
    rw [staged_v3]; exact shapeCast_a_1a_apply _ _ 0 q
  have e5 : ∀ k : Fin 384, (V m c main_v5 : S384x768.Idx → EReal) (ix2 k q)
      = (m ((c : Thread nD τ).loc main_arg3) : S768x384.Idx → EReal) (ix2 q k) := fun k => by
    rw [staged_v5]; exact transpose_ix2_apply _ _ k q
  have e7 : ∀ k : Fin 384, (V m c main_v7 : S384x768.Idx → EReal) (ix2 k q)
      = (m ((c : Thread nD τ).loc main_arg5) : S768x384.Idx → EReal) (ix2 q k) := fun k => by
    rw [staged_v7]; exact transpose_ix2_apply _ _ k q
  simp only [e0, e1, e2, e3, e5, e7]

/-- With the two big arguments finite the result buffer is `result` of the arguments: at every entry the one-pass and
    the two-pass spellings agree on rows of finite numbers. -/
theorem kernel_result (c : Dev nD)
    (ha : ∀ i, ∃ r : ℝ, m ((c.tc : Thread nD τ).loc main_arg0) i = (r : EReal))
    (hs : ∀ i, ∃ r : ℝ, m ((c.tc : Thread nD τ).loc main_arg1) i = (r : EReal)) :
    (Pipeline.afterTail₀ cfgs (dats m) 0 (V0 m) [hostOps1] c main_v9 : S4x8192x768.Idx → EReal)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨b, n, q, rfl⟩ : ∃ (b : Fin 4) (n : Fin 8192) (q : Fin 768), i = ix3 b n q := ⟨i 0, i 1, i 2, eq_ix3 i⟩
  rw [kernel_entry, result_apply]
  exact entryOnePass_eq_entryTwoPass _ q _ _ _ _ _ (fun j => ha _) (fun k => hs _)

/-! ## The run, read -/

/-- Every weakly fair execution of the idealized kernel from a memory whose two big arguments are finite terminates
    with the result buffer at `result` of the arguments and the arguments unchanged. -/
theorem run (hfin : ∀ c : Dev nD, (∀ i, ∃ r : ℝ, m ((c.tc : Thread nD τ).loc main_arg0) i = (r : EReal))
      ∧ (∀ i, ∃ r : ℝ, m ((c.tc : Thread nD τ).loc main_arg1) i = (r : EReal))) :
    θ_run defs (onTc (τ := τ) (main (F := Ideal))) ⟨m, fun _ => 0, ρ⟩ (fun r => ∀ c : Dev nD,
      r.2.mem ((c.tc : Thread nD τ).loc main_v9) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v9 (Pipeline.mem_restRefs_of main_v9 (by decide) (by decide))).trans (kernel_result m c (hfin c).1 (hfin c).2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.AdaLN.KernelResult
end
-- ==== Proof.RefSide.lean ====
/-
  The reference program's result, read at one index, as the two-pass entry function.

  The reference spells the adaptive layer norm over whole arrays: a mean by a sum over the last axis kept as an axis of
  size one and divided by the row length, the centred array, the mean of its square, the square root of that plus
  the offset, the quotient; the same for the conditioning input; the product with the norm's weights; two contractions
  against the rows of the projection matrices; the logistic function of one of them plus the bias written as
  `1 / (1 + exp(-z))`; and the final product and sum. Read at the index `(b, n, q)` every stage depends only on row
  `(b, n)` of the two inputs: each lemma below reads one stage, or a short chain of stages, at an index written with
  its three coordinates, and the last one assembles the entry function `entryTwoPass` of the specification.
-/
import proofs.«156625_j86371792322640_2_alg».proof.Proof.Gen.ReferenceIdeal.Run
import proofs.«156625_j86371792322640_2_alg».proof.Proof.Gen.ReferenceIdeal.Read
import proofs.«156625_j86371792322640_2_alg».proof.Proof.Spec

noncomputable section

open scoped BigOperators

namespace Cert.AdaLN.RefSide

open Cert.ReferenceIdeal Cert.ReferenceIdeal.Read Idealize.ShloMosaic Idealize.ShloMosaic.ValueIdx Cert.AdaLN

variable (a : FVec Ideal S4x8192x768 .f32) (s : FVec Ideal S4x8192x384 .f32) (w : FVec Ideal S384 .f32)
  (Wg : FVec Ideal S768x384 .f32) (bg : FVec Ideal S768 .f32) (Wb : FVec Ideal S768x384 .f32)

/-! ## The activations' layer norm -/

/-- The keepdims mean of the activations, read anywhere on row `(b, n)`, is the mean of that row. -/
theorem mean_a (b : Fin 4) (n : Fin 8192) (z : Fin 1) :
    val_main_v3 (F := Ideal) a (ix3 b n z) = mean N768 (fun j => a (ix3 b n j)) := by
  rw [val_main_v3_apply, val_main_v1_apply, val_main_v0_apply, val_main_v2_apply, val_main_cst_0_apply,
    val_main_cst_apply]
  have e : ∀ k : Fin 768, idx_main_v0 (idx_main_v1 (ix3 b n z)) k = ix3 b n k := fun k =>
    funext fun d => Fin.ext (by match d with | ⟨0, _⟩ => rfl | ⟨1, _⟩ => rfl | ⟨2, _⟩ => rfl)
  simp only [e, Ideal.hostDivf_def, Ideal.ofBits_def, Ideal.ofBits_zero_f32, zero_add, mean, N768]

/-- The centred activations (the copy that is squared). -/
theorem cen_a (b : Fin 4) (n : Fin 8192) (q : Fin 768) :
    val_main_v5 (F := Ideal) a (ix3 b n q) = a (ix3 b n q) - mean N768 (fun j => a (ix3 b n j)) := by
  rw [val_main_v5_apply, val_main_v4_apply]
  have e : idx_main_v4 (ix3 b n q) = ix3 b n (0 : Fin 1) :=
    funext fun d => Fin.ext (by match d with | ⟨0, _⟩ => rfl | ⟨1, _⟩ => rfl | ⟨2, _⟩ => rfl)
  rw [e, mean_a]
  rfl

/-- The keepdims mean squared deviation of row `(b, n)` of the activations. -/
theorem var_a (b : Fin 4) (n : Fin 8192) (z : Fin 1) :
    val_main_v10 (F := Ideal) a (ix3 b n z)
      = Ideal.div (∑ j : Fin 768, (a (ix3 b n j) - mean N768 (fun j => a (ix3 b n j)))
          * (a (ix3 b n j) - mean N768 (fun j => a (ix3 b n j)))) N768 := by
  rw [val_main_v10_apply, val_main_v8_apply, val_main_v7_apply, val_main_v9_apply, val_main_cst_2_apply,
    val_main_cst_1_apply]
  have e : ∀ k : Fin 768, idx_main_v7 (idx_main_v8 (ix3 b n z)) k = ix3 b n k := fun k =>
    funext fun d => Fin.ext (by match d with | ⟨0, _⟩ => rfl | ⟨1, _⟩ => rfl | ⟨2, _⟩ => rfl)
  simp only [e, val_main_v6_apply, cen_a, Ideal.hostDivf_def, Ideal.mulf_def, Ideal.ofBits_def, Ideal.ofBits_zero_f32,
    zero_add, N768]

/-- The normalised activations are the two-pass layer norm of the row. -/
theorem ln_a (b : Fin 4) (n : Fin 8192) (q : Fin 768) :
    val_main_v17 (F := Ideal) a (ix3 b n q) = lnTwoPass N768 eps (fun j => a (ix3 b n j)) q := by
  rw [val_main_v17_apply, val_main_v12_apply, val_main_v11_apply, val_main_v16_apply, val_main_v15_apply,
    val_main_v14_apply, val_main_v13_apply, val_main_cst_3_apply]
  have e11 : idx_main_v11 (ix3 b n q) = ix3 b n (0 : Fin 1) :=
    funext fun d => Fin.ext (by match d with | ⟨0, _⟩ => rfl | ⟨1, _⟩ => rfl | ⟨2, _⟩ => rfl)
  have e16 : idx_main_v16 (ix3 b n q) = ix3 b n (0 : Fin 1) :=
    funext fun d => Fin.ext (by match d with | ⟨0, _⟩ => rfl | ⟨1, _⟩ => rfl | ⟨2, _⟩ => rfl)
  rw [e11, e16, mean_a, var_a]
  simp only [Ideal.hostDivf_def, Ideal.subf_def, Ideal.addf_def, Ideal.hostUnary_sqrt_def, Ideal.ofBits_def, lnTwoPass,
    eps]

/-! ## The conditioning input's layer norm -/

/-- The keepdims mean of the conditioning input, read anywhere on row `(b, n)`, is the mean of that row. -/
theorem mean_s (b : Fin 4) (n : Fin 8192) (z : Fin 1) :
    val_main_v21 (F := Ideal) s (ix3 b n z) = mean N384 (fun c => s (ix3 b n c)) := by
  rw [val_main_v21_apply, val_main_v19_apply, val_main_v18_apply, val_main_v20_apply, val_main_cst_5_apply,
    val_main_cst_4_apply]
  have e : ∀ k : Fin 384, idx_main_v18 (idx_main_v19 (ix3 b n z)) k = ix3 b n k := fun k =>
    funext fun d => Fin.ext (by match d with | ⟨0, _⟩ => rfl | ⟨1, _⟩ => rfl | ⟨2, _⟩ => rfl)
  simp only [e, Ideal.hostDivf_def, Ideal.ofBits_def, Ideal.ofBits_zero_f32, zero_add, mean, N384]

/-- The centred conditioning input (the copy that is squared). -/
theorem cen_s (b : Fin 4) (n : Fin 8192) (c : Fin 384) :
    val_main_v23 (F := Ideal) s (ix3 b n c) = s (ix3 b n c) - mean N384 (fun c => s (ix3 b n c)) := by
  rw [val_main_v23_apply, val_main_v22_apply]
  have e : idx_main_v22 (ix3 b n c) = ix3 b n (0 : Fin 1) :=
    funext fun d => Fin.ext (by match d with | ⟨0, _⟩ => rfl | ⟨1, _⟩ => rfl | ⟨2, _⟩ => rfl)
  rw [e, mean_s]
  rfl

/-- The keepdims mean squared deviation of row `(b, n)` of the conditioning input. -/
theorem var_s (b : Fin 4) (n : Fin 8192) (z : Fin 1) :
    val_main_v28 (F := Ideal) s (ix3 b n z)
      = Ideal.div (∑ j : Fin 384, (s (ix3 b n j) - mean N384 (fun c => s (ix3 b n c)))
          * (s (ix3 b n j) - mean N384 (fun c => s (ix3 b n c)))) N384 := by
  rw [val_main_v28_apply, val_main_v26_apply, val_main_v25_apply, val_main_v27_apply, val_main_cst_7_apply,
    val_main_cst_6_apply]
  have e : ∀ k : Fin 384, idx_main_v25 (idx_main_v26 (ix3 b n z)) k = ix3 b n k := fun k =>
    funext fun d => Fin.ext (by match d with | ⟨0, _⟩ => rfl | ⟨1, _⟩ => rfl | ⟨2, _⟩ => rfl)
  simp only [e, val_main_v24_apply, cen_s, Ideal.hostDivf_def, Ideal.mulf_def, Ideal.ofBits_def, Ideal.ofBits_zero_f32,
    zero_add, N384]

/-- The normalised conditioning input is the two-pass layer norm of the row. -/
theorem ln_s (b : Fin 4) (n : Fin 8192) (c : Fin 384) :
    val_main_v35 (F := Ideal) s (ix3 b n c) = lnTwoPass N384 eps (fun c => s (ix3 b n c)) c := by
  rw [val_main_v35_apply, val_main_v30_apply, val_main_v29_apply, val_main_v34_apply, val_main_v33_apply,
    val_main_v32_apply, val_main_v31_apply, val_main_cst_8_apply]
  have e29 : idx_main_v29 (ix3 b n c) = ix3 b n (0 : Fin 1) :=
    funext fun d => Fin.ext (by match d with | ⟨0, _⟩ => rfl | ⟨1, _⟩ => rfl | ⟨2, _⟩ => rfl)
  have e34 : idx_main_v34 (ix3 b n c) = ix3 b n (0 : Fin 1) :=
    funext fun d => Fin.ext (by match d with | ⟨0, _⟩ => rfl | ⟨1, _⟩ => rfl | ⟨2, _⟩ => rfl)
  rw [e29, e34, mean_s, var_s]
  simp only [Ideal.hostDivf_def, Ideal.subf_def, Ideal.addf_def, Ideal.hostUnary_sqrt_def, Ideal.ofBits_def, lnTwoPass,
    eps]

/-! ## The modulated row and the two projections -/

/-- The normalised conditioning input times the norm's weight vector. -/
theorem mod_s (b : Fin 4) (n : Fin 8192) (c : Fin 384) :
    val_main_v38 (F := Ideal) s w (ix3 b n c) = lnTwoPass N384 eps (fun c => s (ix3 b n c)) c * w (ix1 c) := by
  rw [val_main_v38_apply, val_main_v37_apply, val_main_v36_apply, ln_s]
  have e : idx_main_v36 (idx_main_v37 (ix3 b n c)) = ix1 c :=
    funext fun d => Fin.ext (by match d with | ⟨0, _⟩ => rfl)
  rw [e]
  rfl

/-- The gate projection: the modulated row against row `q` of the gate matrix. -/
theorem dot_g (b : Fin 4) (n : Fin 8192) (q : Fin 768) :
    val_main_v39 (F := Ideal) s w Wg (ix3 b n q)
      = ∑ c : Fin 384, (lnTwoPass N384 eps (fun c => s (ix3 b n c)) c * w (ix1 c)) * Wg (ix2 q c) := by
  rw [val_main_v39_apply]
  refine Finset.sum_congr rfl fun k _ => ?_
  have el : lidx_main_v39 (ix3 b n q) k = ix3 b n k :=
    funext fun d => Fin.ext (by match d with | ⟨0, _⟩ => rfl | ⟨1, _⟩ => rfl | ⟨2, _⟩ => rfl)
  have er : ridx_main_v39 (ix3 b n q) k = ix2 q k :=
    funext fun d => Fin.ext (by match d with | ⟨0, _⟩ => rfl | ⟨1, _⟩ => rfl)
  rw [el, er, mod_s]

/-- The shift projection: the modulated row against row `q` of the shift matrix. -/
theorem dot_b (b : Fin 4) (n : Fin 8192) (q : Fin 768) :
    val_main_v49 (F := Ideal) s w Wb (ix3 b n q)
      = ∑ c : Fin 384, (lnTwoPass N384 eps (fun c => s (ix3 b n c)) c * w (ix1 c)) * Wb (ix2 q c) := by
  rw [val_main_v49_apply]
  refine Finset.sum_congr rfl fun k _ => ?_
  have el : lidx_main_v49 (ix3 b n q) k = ix3 b n k :=
    funext fun d => Fin.ext (by match d with | ⟨0, _⟩ => rfl | ⟨1, _⟩ => rfl | ⟨2, _⟩ => rfl)
  have er : ridx_main_v49 (ix3 b n q) k = ix2 q k :=
    funext fun d => Fin.ext (by match d with | ⟨0, _⟩ => rfl | ⟨1, _⟩ => rfl)
  rw [el, er, mod_s]

/-- The gate: the logistic function, written out, of the gate projection plus the gate bias. -/
theorem gate (b : Fin 4) (n : Fin 8192) (q : Fin 768) :
    val_main_v48 (F := Ideal) s w Wg bg (ix3 b n q)
      = Ideal.div one (one + Ideal.exp (-((∑ c : Fin 384,
          (lnTwoPass N384 eps (fun c => s (ix3 b n c)) c * w (ix1 c)) * Wg (ix2 q c)) + bg (ix1 q)))) := by
  rw [val_main_v48_apply, val_main_v47_apply, val_main_cst_10_apply, val_main_v46_apply, val_main_v45_apply,
    val_main_cst_9_apply, val_main_v44_apply, val_main_v43_apply, val_main_v42_apply, val_main_v41_apply,
    val_main_v40_apply, dot_g]
  have e : idx_main_v40 (idx_main_v41 (ix3 b n q)) = ix1 q :=
    funext fun d => Fin.ext (by match d with | ⟨0, _⟩ => rfl)
  rw [e]
  simp only [Ideal.hostDivf_def, Ideal.addf_def, Ideal.hostUnary_exp_def, Ideal.hostNegf_def, Ideal.negf_def,
    Ideal.ofBits_def, one]

/-! ## One output entry -/

/-- The reference program's result at `(b, n, q)` is the two-pass entry function of row `(b, n)` of the activations and
    of the conditioning input, the norm's weights, row `q` of the two projection matrices and entry `q` of the gate bias. -/
theorem ref_entry (b : Fin 4) (n : Fin 8192) (q : Fin 768) :
    val_main_v51 (F := Ideal) a s w Wg bg Wb (ix3 b n q)
      = entryTwoPass (fun j => a (ix3 b n j)) q (fun c => s (ix3 b n c)) (fun c => w (ix1 c)) (fun c => Wg (ix2 q c))
          (fun c => Wb (ix2 q c)) (bg (ix1 q)) := by
  rw [val_main_v51_apply, val_main_v50_apply, ln_a, gate, dot_b]
  simp only [Ideal.addf_def, Ideal.mulf_def, entryTwoPass]

end Cert.AdaLN.RefSide

end
-- ==== Proof.RefResult.lean ====
/-
  The reference program's result array is `result` of its arguments: its last stage read at every index
  `(b, n, q)` is the two-pass entry function of the rows and columns that index names.
-/
import proofs.«156625_j86371792322640_2_alg».proof.Proof.RefSide
import proofs.«156625_j86371792322640_2_alg».proof.Proof.Result

noncomputable section

namespace Cert.AdaLN.RefSide

open Cert.ReferenceIdeal Cert.ReferenceIdeal.Read Idealize.ShloMosaic Idealize.ShloMosaic.ValueIdx Cert.AdaLN

theorem ref_result (a : FVec Ideal S4x8192x768 .f32) (s : FVec Ideal S4x8192x384 .f32) (w : FVec Ideal S384 .f32)
    (Wg : FVec Ideal S768x384 .f32) (bg : FVec Ideal S768 .f32) (Wb : FVec Ideal S768x384 .f32) :
    val_main_v51 (F := Ideal) a s w Wg bg Wb = result a s w Wg bg Wb := by
  funext i
  obtain ⟨b, n, q, rfl⟩ : ∃ (b : Fin 4) (n : Fin 8192) (q : Fin 768), i = ix3 b n q := ⟨i 0, i 1, i 2, eq_ix3 i⟩
  rw [result_apply]
  exact ref_entry a s w Wg bg Wb b n q

end Cert.AdaLN.RefSide

end
-- ==== Proof.lean ====
/-
  The certificate of an adaptive layer norm kernel against its jnp reference.

  Both programs compute, for activations `a : [4, 8192, 768]` and a conditioning input `s : [4, 8192, 384]`,

      out = LN(a) · σ((LN(s) ⊙ w) Wgᵀ + bg) + (LN(s) ⊙ w) Wbᵀ,

  each row normalised on its own. The reference normalises with the two-pass variance `mean((x - μ)²)`, divides by
  its square root and writes the logistic function out as `1 / (1 + exp(-z))`. The kernel flattens the leading axes
  to 32768 rows, works on blocks of 1024 rows over a grid of 32 points, normalises with the one-pass variance
  `mean(x²) - μ²` and the reciprocal square root, rounds the normalised conditioning rows and the (transposed) matrices
  to a narrower float format before two matrix products, and applies the logistic function as one operation.

  Over the extended reals a change of float format is the identity, a matrix product and a lane sum are plain sums,
  and the logistic operation is its written-out form. What is left is the layer norm's two spellings: on a row of
  finite numbers `mean(x²) - μ² = mean((x - μ)²)` (the row's sums are then real numbers), the variance plus the
  positive offset is a positive real, and there `y · (√v)⁻¹ = y / √v`. The precondition gives exactly that finiteness
  of `a` and `s`; the weight, the matrices and the bias enter both sides through the same sums and products and may
  be anything. So at every index `(b, n, q)` both result arrays hold one function of the arguments
  (`Cert.AdaLN.result`).

  The three frame claims are the generated frame runs; the idealized kernel is the kernel's own text read over the
  extended reals (the idealization rewrote nothing), so nothing is owed for it.
-/
import proofs.«156625_j86371792322640_2_alg».proof.Defs
import proofs.«156625_j86371792322640_2_alg».proof.Proof.Gen.Kernel
import proofs.«156625_j86371792322640_2_alg».proof.Proof.Gen.Kernel.Frame
import proofs.«156625_j86371792322640_2_alg».proof.Proof.Gen.KernelIdeal
import proofs.«156625_j86371792322640_2_alg».proof.Proof.Gen.KernelIdeal.Frame
import proofs.«156625_j86371792322640_2_alg».proof.Proof.Gen.ReferenceIdeal
import proofs.«156625_j86371792322640_2_alg».proof.Proof.Gen.ReferenceIdeal.Run
import proofs.«156625_j86371792322640_2_alg».proof.Proof.Gen.ReferenceIdeal.Read
import proofs.«156625_j86371792322640_2_alg».proof.Proof.Gen.Pre_finite_inputs
import proofs.«156625_j86371792322640_2_alg».proof.Proof.FiniteInputs
import proofs.«156625_j86371792322640_2_alg».proof.Proof.KernelResult
import proofs.«156625_j86371792322640_2_alg».proof.Proof.RefResult
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, with `a` and `s` finite, both programs end with their result arrays at
    `Cert.AdaLN.result` of the arguments. -/
theorem algebraic : Cert.algebraic_KernelIdeal_ReferenceIdeal := by
  intro m ρ m' ρ' hpre hagree
  refine ⟨_, Cert.AdaLN.KernelResult.run m ρ (fun c => Cert.AdaLN.Finite.finite_of_pre m hpre c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.AdaLN.RefSide.ref_result]
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
